-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32768x1024 .f32) (main_arg1 : FVec F S1024x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S32768x1024 : Shape := ⟨2, ![32768, 1024]⟩
abbrev S1024x1024 : Shape := ⟨2, ![1024, 1024]⟩
abbrev S32768x2048 : Shape := ⟨2, ![32768, 2048]⟩
abbrev S512x1024 : Shape := ⟨2, ![512, 1024]⟩
abbrev S512x2048 : Shape := ⟨2, ![512, 2048]⟩
abbrev S512x1 : Shape := ⟨2, ![512, 1]⟩
abbrev S512x2 : Shape := ⟨2, ![512, 2]⟩
abbrev S512x1x1 : Shape := ⟨3, ![512, 1, 1]⟩
abbrev S512x1x2 : Shape := ⟨3, ![512, 1, 2]⟩
abbrev S512x2x1 : Shape := ⟨3, ![512, 2, 1]⟩
abbrev S512x2x2 : Shape := ⟨3, ![512, 2, 2]⟩
abbrev S512x4 : Shape := ⟨2, ![512, 4]⟩
abbrev S512x4x1 : Shape := ⟨3, ![512, 4, 1]⟩
abbrev S512x4x2 : Shape := ⟨3, ![512, 4, 2]⟩
abbrev S512x8 : Shape := ⟨2, ![512, 8]⟩
abbrev S512x8x1 : Shape := ⟨3, ![512, 8, 1]⟩
abbrev S512x8x2 : Shape := ⟨3, ![512, 8, 2]⟩
abbrev S512x16 : Shape := ⟨2, ![512, 16]⟩
abbrev S512x16x1 : Shape := ⟨3, ![512, 16, 1]⟩
abbrev S512x16x2 : Shape := ⟨3, ![512, 16, 2]⟩
abbrev S512x32 : Shape := ⟨2, ![512, 32]⟩
abbrev S512x32x1 : Shape := ⟨3, ![512, 32, 1]⟩
abbrev S512x32x2 : Shape := ⟨3, ![512, 32, 2]⟩
abbrev S512x64 : Shape := ⟨2, ![512, 64]⟩
abbrev S512x64x1 : Shape := ⟨3, ![512, 64, 1]⟩
abbrev S512x64x2 : Shape := ⟨3, ![512, 64, 2]⟩
abbrev S512x128 : Shape := ⟨2, ![512, 128]⟩
abbrev S512x128x1 : Shape := ⟨3, ![512, 128, 1]⟩
abbrev S512x128x2 : Shape := ⟨3, ![512, 128, 2]⟩
abbrev S512x256 : Shape := ⟨2, ![512, 256]⟩
abbrev S512x256x1 : Shape := ⟨3, ![512, 256, 1]⟩
abbrev S512x256x2 : Shape := ⟨3, ![512, 256, 2]⟩
abbrev S512x512 : Shape := ⟨2, ![512, 512]⟩
abbrev S512x512x1 : Shape := ⟨3, ![512, 512, 1]⟩
abbrev S512x512x2 : Shape := ⟨3, ![512, 512, 2]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .bf16⟩
  | .hbm, ⟨3, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x2048, .f32⟩
  | .local _ .vmem, ⟨4, _⟩ => ⟨S512x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S512x1024_o0_1_S512x1 : S512x1024.Slices ![0, 1] S512x1
  shapeCasts_S512x1_S512x1x1 : S512x1.ShapeCasts S512x1x1
  concatenates_S512x1x1_S512x1x1_S512x1x2_d2 : Shape.Concatenates [S512x1x1, S512x1x1] S512x1x2 2
  broadcasts_S512x1x1_S512x1x2 : S512x1x1.Broadcasts S512x1x2
  shapeCasts_S512x1x2_S512x2 : S512x1x2.ShapeCasts S512x2
  slices_S512x1024_o0_2_S512x2 : S512x1024.Slices ![0, 2] S512x2
  shapeCasts_S512x2_S512x2x1 : S512x2.ShapeCasts S512x2x1
  concatenates_S512x2x1_S512x2x1_S512x2x2_d2 : Shape.Concatenates [S512x2x1, S512x2x1] S512x2x2 2
  broadcasts_S512x2x1_S512x2x2 : S512x2x1.Broadcasts S512x2x2
  shapeCasts_S512x2x2_S512x4 : S512x2x2.ShapeCasts S512x4
  slices_S512x1024_o0_4_S512x4 : S512x1024.Slices ![0, 4] S512x4
  shapeCasts_S512x4_S512x4x1 : S512x4.ShapeCasts S512x4x1
  concatenates_S512x4x1_S512x4x1_S512x4x2_d2 : Shape.Concatenates [S512x4x1, S512x4x1] S512x4x2 2
  broadcasts_S512x4x1_S512x4x2 : S512x4x1.Broadcasts S512x4x2
  shapeCasts_S512x4x2_S512x8 : S512x4x2.ShapeCasts S512x8
  slices_S512x1024_o0_8_S512x8 : S512x1024.Slices ![0, 8] S512x8
  shapeCasts_S512x8_S512x8x1 : S512x8.ShapeCasts S512x8x1
  concatenates_S512x8x1_S512x8x1_S512x8x2_d2 : Shape.Concatenates [S512x8x1, S512x8x1] S512x8x2 2
  broadcasts_S512x8x1_S512x8x2 : S512x8x1.Broadcasts S512x8x2
  shapeCasts_S512x8x2_S512x16 : S512x8x2.ShapeCasts S512x16
  slices_S512x1024_o0_16_S512x16 : S512x1024.Slices ![0, 16] S512x16
  shapeCasts_S512x16_S512x16x1 : S512x16.ShapeCasts S512x16x1
  concatenates_S512x16x1_S512x16x1_S512x16x2_d2 : Shape.Concatenates [S512x16x1, S512x16x1] S512x16x2 2
  broadcasts_S512x16x1_S512x16x2 : S512x16x1.Broadcasts S512x16x2
  shapeCasts_S512x16x2_S512x32 : S512x16x2.ShapeCasts S512x32
  slices_S512x1024_o0_32_S512x32 : S512x1024.Slices ![0, 32] S512x32
  shapeCasts_S512x32_S512x32x1 : S512x32.ShapeCasts S512x32x1
  concatenates_S512x32x1_S512x32x1_S512x32x2_d2 : Shape.Concatenates [S512x32x1, S512x32x1] S512x32x2 2
  broadcasts_S512x32x1_S512x32x2 : S512x32x1.Broadcasts S512x32x2
  shapeCasts_S512x32x2_S512x64 : S512x32x2.ShapeCasts S512x64
  slices_S512x1024_o0_64_S512x64 : S512x1024.Slices ![0, 64] S512x64
  shapeCasts_S512x64_S512x64x1 : S512x64.ShapeCasts S512x64x1
  concatenates_S512x64x1_S512x64x1_S512x64x2_d2 : Shape.Concatenates [S512x64x1, S512x64x1] S512x64x2 2
  broadcasts_S512x64x1_S512x64x2 : S512x64x1.Broadcasts S512x64x2
  shapeCasts_S512x64x2_S512x128 : S512x64x2.ShapeCasts S512x128
  slices_S512x1024_o0_128_S512x128 : S512x1024.Slices ![0, 128] S512x128
  shapeCasts_S512x128_S512x128x1 : S512x128.ShapeCasts S512x128x1
  concatenates_S512x128x1_S512x128x1_S512x128x2_d2 : Shape.Concatenates [S512x128x1, S512x128x1] S512x128x2 2
  broadcasts_S512x128x1_S512x128x2 : S512x128x1.Broadcasts S512x128x2
  shapeCasts_S512x128x2_S512x256 : S512x128x2.ShapeCasts S512x256
  slices_S512x1024_o0_256_S512x256 : S512x1024.Slices ![0, 256] S512x256
  shapeCasts_S512x256_S512x256x1 : S512x256.ShapeCasts S512x256x1
  concatenates_S512x256x1_S512x256x1_S512x256x2_d2 : Shape.Concatenates [S512x256x1, S512x256x1] S512x256x2 2
  broadcasts_S512x256x1_S512x256x2 : S512x256x1.Broadcasts S512x256x2
  shapeCasts_S512x256x2_S512x512 : S512x256x2.ShapeCasts S512x512
  slices_S512x1024_o0_512_S512x512 : S512x1024.Slices ![0, 512] S512x512
  shapeCasts_S512x512_S512x512x1 : S512x512.ShapeCasts S512x512x1
  concatenates_S512x512x1_S512x512x1_S512x512x2_d2 : Shape.Concatenates [S512x512x1, S512x512x1] S512x512x2 2
  broadcasts_S512x512x1_S512x512x2 : S512x512x1.Broadcasts S512x512x2
  shapeCasts_S512x512x2_S512x1024 : S512x512x2.ShapeCasts S512x1024
  concatenates_S512x2_S512x2_S512x4_S512x8_S512x16_S512x32_S512x64_S512x128_S512x256_S512x512_S512x1024_S512x2048_d1 : Shape.Concatenates [S512x2, S512x2, S512x4, S512x8, S512x16, S512x32, S512x64, S512x128, S512x256, S512x512, S512x1024] S512x2048 1
  inb_S512x2048_S512x2048_0_0 : ∀ a, (![0, 0] : Fin 2 → Nat) a + S512x2048.size a ≤ S512x2048.size a
  h_S512x2048 : 0 < S512x2048.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S32768x2048.size a
  hwx0_2 : ∀ i : grid0.Coords, EltTy.bits .f32 = 32 ∨ (Rect.block (s := S32768x2048) S512x2048.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S_ : Shape := ⟨0, ![]⟩
abbrev S32768x1024x1 : Shape := ⟨3, ![32768, 1024, 1]⟩
abbrev S32768x1024x2 : Shape := ⟨3, ![32768, 1024, 2]⟩
abbrev S32768x1 : Shape := ⟨2, ![32768, 1]⟩
abbrev S32768x2 : Shape := ⟨2, ![32768, 2]⟩
abbrev S32768x1x2 : Shape := ⟨3, ![32768, 1, 2]⟩
abbrev S32768x1x1 : Shape := ⟨3, ![32768, 1, 1]⟩
abbrev S32768x2x2 : Shape := ⟨3, ![32768, 2, 2]⟩
abbrev S32768x2x1 : Shape := ⟨3, ![32768, 2, 1]⟩
abbrev S32768x4 : Shape := ⟨2, ![32768, 4]⟩
abbrev S32768x4x2 : Shape := ⟨3, ![32768, 4, 2]⟩
abbrev S32768x4x1 : Shape := ⟨3, ![32768, 4, 1]⟩
abbrev S32768x8 : Shape := ⟨2, ![32768, 8]⟩
abbrev S32768x8x2 : Shape := ⟨3, ![32768, 8, 2]⟩
abbrev S32768x8x1 : Shape := ⟨3, ![32768, 8, 1]⟩
abbrev S32768x16 : Shape := ⟨2, ![32768, 16]⟩
abbrev S32768x16x2 : Shape := ⟨3, ![32768, 16, 2]⟩
abbrev S32768x16x1 : Shape := ⟨3, ![32768, 16, 1]⟩
abbrev S32768x32 : Shape := ⟨2, ![32768, 32]⟩
abbrev S32768x32x2 : Shape := ⟨3, ![32768, 32, 2]⟩
abbrev S32768x32x1 : Shape := ⟨3, ![32768, 32, 1]⟩
abbrev S32768x64 : Shape := ⟨2, ![32768, 64]⟩
abbrev S32768x64x2 : Shape := ⟨3, ![32768, 64, 2]⟩
abbrev S32768x64x1 : Shape := ⟨3, ![32768, 64, 1]⟩
abbrev S32768x128 : Shape := ⟨2, ![32768, 128]⟩
abbrev S32768x128x2 : Shape := ⟨3, ![32768, 128, 2]⟩
abbrev S32768x128x1 : Shape := ⟨3, ![32768, 128, 1]⟩
abbrev S32768x256 : Shape := ⟨2, ![32768, 256]⟩
abbrev S32768x256x2 : Shape := ⟨3, ![32768, 256, 2]⟩
abbrev S32768x256x1 : Shape := ⟨3, ![32768, 256, 1]⟩
abbrev S32768x512 : Shape := ⟨2, ![32768, 512]⟩
abbrev S32768x512x2 : Shape := ⟨3, ![32768, 512, 2]⟩
abbrev S32768x512x1 : Shape := ⟨3, ![32768, 512, 1]⟩
abbrev S32768x2048 : Shape := ⟨2, ![32768, 2048]⟩

abbrev nBuf : Space → Nat
  | .hbm => 72
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024x1, .f32⟩
  | .hbm, ⟨15, _⟩ => ⟨S32768x1024x1, .f32⟩
  | .hbm, ⟨16, _⟩ => ⟨S32768x1024x2, .f32⟩
  | .hbm, ⟨17, _⟩ => ⟨S_, .f32⟩
  | .hbm, ⟨18, _⟩ => ⟨S32768x1, .f32⟩
  | .hbm, ⟨19, _⟩ => ⟨S_, .f32⟩
  | .hbm, ⟨20, _⟩ => ⟨S32768x2, .f32⟩
  | .hbm, ⟨21, _⟩ => ⟨S32768x1x2, .f32⟩
  | .hbm, ⟨22, _⟩ => ⟨S32768x1x1, .f32⟩
  | .hbm, ⟨23, _⟩ => ⟨S32768x1x2, .f32⟩
  | .hbm, ⟨24, _⟩ => ⟨S32768x1x2, .f32⟩
  | .hbm, ⟨25, _⟩ => ⟨S32768x2, .f32⟩
  | .hbm, ⟨26, _⟩ => ⟨S32768x2x2, .f32⟩
  | .hbm, ⟨27, _⟩ => ⟨S32768x2x1, .f32⟩
  | .hbm, ⟨28, _⟩ => ⟨S32768x2x2, .f32⟩
  | .hbm, ⟨29, _⟩ => ⟨S32768x2x2, .f32⟩
  | .hbm, ⟨30, _⟩ => ⟨S32768x4, .f32⟩
  | .hbm, ⟨31, _⟩ => ⟨S32768x4x2, .f32⟩
  | .hbm, ⟨32, _⟩ => ⟨S32768x4x1, .f32⟩
  | .hbm, ⟨33, _⟩ => ⟨S32768x4x2, .f32⟩
  | .hbm, ⟨34, _⟩ => ⟨S32768x4x2, .f32⟩
  | .hbm, ⟨35, _⟩ => ⟨S32768x8, .f32⟩
  | .hbm, ⟨36, _⟩ => ⟨S32768x8x2, .f32⟩
  | .hbm, ⟨37, _⟩ => ⟨S32768x8x1, .f32⟩
  | .hbm, ⟨38, _⟩ => ⟨S32768x8x2, .f32⟩
  | .hbm, ⟨39, _⟩ => ⟨S32768x8x2, .f32⟩
  | .hbm, ⟨40, _⟩ => ⟨S32768x16, .f32⟩
  | .hbm, ⟨41, _⟩ => ⟨S32768x16x2, .f32⟩
  | .hbm, ⟨42, _⟩ => ⟨S32768x16x1, .f32⟩
  | .hbm, ⟨43, _⟩ => ⟨S32768x16x2, .f32⟩
  | .hbm, ⟨44, _⟩ => ⟨S32768x16x2, .f32⟩
  | .hbm, ⟨45, _⟩ => ⟨S32768x32, .f32⟩
  | .hbm, ⟨46, _⟩ => ⟨S32768x32x2, .f32⟩
  | .hbm, ⟨47, _⟩ => ⟨S32768x32x1, .f32⟩
  | .hbm, ⟨48, _⟩ => ⟨S32768x32x2, .f32⟩
  | .hbm, ⟨49, _⟩ => ⟨S32768x32x2, .f32⟩
  | .hbm, ⟨50, _⟩ => ⟨S32768x64, .f32⟩
  | .hbm, ⟨51, _⟩ => ⟨S32768x64x2, .f32⟩
  | .hbm, ⟨52, _⟩ => ⟨S32768x64x1, .f32⟩
  | .hbm, ⟨53, _⟩ => ⟨S32768x64x2, .f32⟩
  | .hbm, ⟨54, _⟩ => ⟨S32768x64x2, .f32⟩
  | .hbm, ⟨55, _⟩ => ⟨S32768x128, .f32⟩
  | .hbm, ⟨56, _⟩ => ⟨S32768x128x2, .f32⟩
  | .hbm, ⟨57, _⟩ => ⟨S32768x128x1, .f32⟩
  | .hbm, ⟨58, _⟩ => ⟨S32768x128x2, .f32⟩
  | .hbm, ⟨59, _⟩ => ⟨S32768x128x2, .f32⟩
  | .hbm, ⟨60, _⟩ => ⟨S32768x256, .f32⟩
  | .hbm, ⟨61, _⟩ => ⟨S32768x256x2, .f32⟩
  | .hbm, ⟨62, _⟩ => ⟨S32768x256x1, .f32⟩
  | .hbm, ⟨63, _⟩ => ⟨S32768x256x2, .f32⟩
  | .hbm, ⟨64, _⟩ => ⟨S32768x256x2, .f32⟩
  | .hbm, ⟨65, _⟩ => ⟨S32768x512, .f32⟩
  | .hbm, ⟨66, _⟩ => ⟨S32768x512x2, .f32⟩
  | .hbm, ⟨67, _⟩ => ⟨S32768x512x1, .f32⟩
  | .hbm, ⟨68, _⟩ => ⟨S32768x512x2, .f32⟩
  | .hbm, ⟨69, _⟩ => ⟨S32768x512x2, .f32⟩
  | .hbm, ⟨70, _⟩ => ⟨S32768x1024, .f32⟩
  | .hbm, ⟨71, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩

abbrev nD : Nat := 1
abbrev τ : Topo := Topo.v7x

variable {F : FTy → Type} [FloatOps F]

class Facts₀ : Prop where
  bcast_S_S32768x1024 : S_.BroadcastsInDim S32768x1024 (![] : Fin 0 → Fin S32768x1024.rank)
  bcast_S32768x1024_S32768x1024x1_0_1 : S32768x1024.BroadcastsInDim S32768x1024x1 (![0, 1] : Fin 2 → Fin S32768x1024x1.rank)
  concatenates_S32768x1024x1_S32768x1024x1_S32768x1024x2_d2 : Shape.Concatenates [S32768x1024x1, S32768x1024x1] S32768x1024x2 2
  bcast_S_S32768x1 : S_.BroadcastsInDim S32768x1 (![] : Fin 0 → Fin S32768x1.rank)
  bcast_S_S32768x2 : S_.BroadcastsInDim S32768x2 (![] : Fin 0 → Fin S32768x2.rank)
  slices_S32768x1024x2_S32768x1x2_0_1_0 : S32768x1024x2.Slices ![0, 1, 0] S32768x1x2
  bcast_S32768x1_S32768x1x1_0_1 : S32768x1.BroadcastsInDim S32768x1x1 (![0, 1] : Fin 2 → Fin S32768x1x1.rank)
  bcast_S32768x1x1_S32768x1x2_0_1_2 : S32768x1x1.BroadcastsInDim S32768x1x2 (![0, 1, 2] : Fin 3 → Fin S32768x1x2.rank)
  shapeCasts_S32768x1x2_S32768x2 : S32768x1x2.ShapeCasts S32768x2
  slices_S32768x1024x2_S32768x2x2_0_2_0 : S32768x1024x2.Slices ![0, 2, 0] S32768x2x2
  bcast_S32768x2_S32768x2x1_0_1 : S32768x2.BroadcastsInDim S32768x2x1 (![0, 1] : Fin 2 → Fin S32768x2x1.rank)
  bcast_S32768x2x1_S32768x2x2_0_1_2 : S32768x2x1.BroadcastsInDim S32768x2x2 (![0, 1, 2] : Fin 3 → Fin S32768x2x2.rank)
  shapeCasts_S32768x2x2_S32768x4 : S32768x2x2.ShapeCasts S32768x4
  slices_S32768x1024x2_S32768x4x2_0_4_0 : S32768x1024x2.Slices ![0, 4, 0] S32768x4x2
  bcast_S32768x4_S32768x4x1_0_1 : S32768x4.BroadcastsInDim S32768x4x1 (![0, 1] : Fin 2 → Fin S32768x4x1.rank)
  bcast_S32768x4x1_S32768x4x2_0_1_2 : S32768x4x1.BroadcastsInDim S32768x4x2 (![0, 1, 2] : Fin 3 → Fin S32768x4x2.rank)
  shapeCasts_S32768x4x2_S32768x8 : S32768x4x2.ShapeCasts S32768x8
  slices_S32768x1024x2_S32768x8x2_0_8_0 : S32768x1024x2.Slices ![0, 8, 0] S32768x8x2
  bcast_S32768x8_S32768x8x1_0_1 : S32768x8.BroadcastsInDim S32768x8x1 (![0, 1] : Fin 2 → Fin S32768x8x1.rank)
  bcast_S32768x8x1_S32768x8x2_0_1_2 : S32768x8x1.BroadcastsInDim S32768x8x2 (![0, 1, 2] : Fin 3 → Fin S32768x8x2.rank)
  shapeCasts_S32768x8x2_S32768x16 : S32768x8x2.ShapeCasts S32768x16
  slices_S32768x1024x2_S32768x16x2_0_16_0 : S32768x1024x2.Slices ![0, 16, 0] S32768x16x2
  bcast_S32768x16_S32768x16x1_0_1 : S32768x16.BroadcastsInDim S32768x16x1 (![0, 1] : Fin 2 → Fin S32768x16x1.rank)
  bcast_S32768x16x1_S32768x16x2_0_1_2 : S32768x16x1.BroadcastsInDim S32768x16x2 (![0, 1, 2] : Fin 3 → Fin S32768x16x2.rank)
  shapeCasts_S32768x16x2_S32768x32 : S32768x16x2.ShapeCasts S32768x32
  slices_S32768x1024x2_S32768x32x2_0_32_0 : S32768x1024x2.Slices ![0, 32, 0] S32768x32x2
  bcast_S32768x32_S32768x32x1_0_1 : S32768x32.BroadcastsInDim S32768x32x1 (![0, 1] : Fin 2 → Fin S32768x32x1.rank)
  bcast_S32768x32x1_S32768x32x2_0_1_2 : S32768x32x1.BroadcastsInDim S32768x32x2 (![0, 1, 2] : Fin 3 → Fin S32768x32x2.rank)
  shapeCasts_S32768x32x2_S32768x64 : S32768x32x2.ShapeCasts S32768x64
  slices_S32768x1024x2_S32768x64x2_0_64_0 : S32768x1024x2.Slices ![0, 64, 0] S32768x64x2
  bcast_S32768x64_S32768x64x1_0_1 : S32768x64.BroadcastsInDim S32768x64x1 (![0, 1] : Fin 2 → Fin S32768x64x1.rank)
  bcast_S32768x64x1_S32768x64x2_0_1_2 : S32768x64x1.BroadcastsInDim S32768x64x2 (![0, 1, 2] : Fin 3 → Fin S32768x64x2.rank)
  shapeCasts_S32768x64x2_S32768x128 : S32768x64x2.ShapeCasts S32768x128
  slices_S32768x1024x2_S32768x128x2_0_128_0 : S32768x1024x2.Slices ![0, 128, 0] S32768x128x2
  bcast_S32768x128_S32768x128x1_0_1 : S32768x128.BroadcastsInDim S32768x128x1 (![0, 1] : Fin 2 → Fin S32768x128x1.rank)
  bcast_S32768x128x1_S32768x128x2_0_1_2 : S32768x128x1.BroadcastsInDim S32768x128x2 (![0, 1, 2] : Fin 3 → Fin S32768x128x2.rank)
  shapeCasts_S32768x128x2_S32768x256 : S32768x128x2.ShapeCasts S32768x256
  slices_S32768x1024x2_S32768x256x2_0_256_0 : S32768x1024x2.Slices ![0, 256, 0] S32768x256x2
  bcast_S32768x256_S32768x256x1_0_1 : S32768x256.BroadcastsInDim S32768x256x1 (![0, 1] : Fin 2 → Fin S32768x256x1.rank)
  bcast_S32768x256x1_S32768x256x2_0_1_2 : S32768x256x1.BroadcastsInDim S32768x256x2 (![0, 1, 2] : Fin 3 → Fin S32768x256x2.rank)
  shapeCasts_S32768x256x2_S32768x512 : S32768x256x2.ShapeCasts S32768x512
  slices_S32768x1024x2_S32768x512x2_0_512_0 : S32768x1024x2.Slices ![0, 512, 0] S32768x512x2
  bcast_S32768x512_S32768x512x1_0_1 : S32768x512.BroadcastsInDim S32768x512x1 (![0, 1] : Fin 2 → Fin S32768x512x1.rank)
  bcast_S32768x512x1_S32768x512x2_0_1_2 : S32768x512x1.BroadcastsInDim S32768x512x2 (![0, 1, 2] : Fin 3 → Fin S32768x512x2.rank)
  shapeCasts_S32768x512x2_S32768x1024 : S32768x512x2.ShapeCasts S32768x1024
  concatenates_S32768x2_S32768x2_S32768x4_S32768x8_S32768x16_S32768x32_S32768x64_S32768x128_S32768x256_S32768x512_S32768x1024_S32768x2048_d1 : Shape.Concatenates [S32768x2, S32768x2, S32768x4, S32768x8, S32768x16, S32768x32, S32768x64, S32768x128, S32768x256, S32768x512, S32768x1024] S32768x2048 1
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.LibTreeLayers.lean ====
/-
  One level of a binary routing tree, on a block of rows, read at an entry.

  A soft decision tree of depth L routes each input row through 2^L - 1 inner nodes laid out in heap order:
  the nodes of level l are the columns 2^l ... 2^(l+1) - 1 of a row of decisions d.  The probability of
  reaching the j-th node of level l + 1 is the probability of reaching its parent j / 2 on level l, times
  the parent's decision d when j is a left child (j even) and times 1 - d when it is a right child:

      mu (l + 1) j = mu l (j / 2) * (if j % 2 = 0 then d (2^l + j / 2) else 1 - d (2^l + j / 2)),   mu 0 _ = 1.

  Two array programs compute one level from the previous one; both are read here at one entry (r, c) of a
  block of R rows, for any number of rows and any width n of the previous level:
  * on vectors: the decisions and their complements sliced at column n, each given a trailing unit axis,
    joined along it, multiplied by the previous level spread over the new axis, and flattened to [R, 2n];
  * on tensors: the pair (decision, complement) stacked once as a [R, W, 2] array, sliced at column n,
    multiplied by the previous level broadcast over the last axis, and reshaped to [R, 2n].
-/
import Idealize.ShloMosaic.Lib.ValueIdx
import Idealize.ShloMosaic.Lib.Pipeline.Value

noncomputable section

namespace Cert.LibTreeLayers

open Idealize.ShloMosaic Idealize.ShloMosaic.ValueIdx

/-- The probability of reaching node j of level l, from the row of decisions d (heap order) and the
    value one a path starts with. -/
def mu (one : EReal) (d : ℕ → EReal) : ℕ → ℕ → EReal
  | 0, _ => one
  | l + 1, j => mu one d l (j / 2) * (if j % 2 = 0 then d (2 ^ l + j / 2) else one - d (2 ^ l + j / 2))

theorem mu_zero (one : EReal) (d : ℕ → EReal) (j : ℕ) : mu one d 0 j = one := rfl

theorem mu_succ (one : EReal) (d : ℕ → EReal) (l j : ℕ) :
    mu one d (l + 1) j = mu one d l (j / 2) * (if j % 2 = 0 then d (2 ^ l + j / 2) else one - d (2 ^ l + j / 2)) := rfl

/-- The whole output row: two leading ones, then level 1, level 2, ... laid end to end, so that column
    c ≥ 2 holds node c - 2^k of level k, 2^k ≤ c < 2^(k+1). -/
def leaf (one : EReal) (d : ℕ → EReal) (c : ℕ) : EReal :=
  if c < 2 then one else mu one d (Nat.log2 c) (c - 2 ^ Nat.log2 c)

theorem leaf_lt_two (one : EReal) (d : ℕ → EReal) {c : ℕ} (h : c < 2) : leaf one d c = one := if_pos h

theorem leaf_of_range (one : EReal) (d : ℕ → EReal) {c : ℕ} (k : ℕ) (hk : 1 ≤ k) (h1 : 2 ^ k ≤ c) (h2 : c < 2 ^ (k + 1)) :
    leaf one d c = mu one d k (c - 2 ^ k) := by
  have h2k : 2 ≤ 2 ^ k := by
    calc 2 = 2 ^ 1 := rfl
      _ ≤ 2 ^ k := Nat.pow_le_pow_right (by decide) hk
  have hc : c ≠ 0 := by omega
  have hl : Nat.log2 c = k := (Nat.log2_eq_iff hc).2 ⟨h1, h2⟩
  unfold leaf
  rw [if_neg (by omega), hl]

section Vector

variable {R W n n2 : ℕ}

/-- ONE LEVEL ON VECTORS at entry (r, c): the previous level at the parent c / 2, times the decision
    at column n + c / 2 for an even c and its complement there for an odd one. -/
theorem vecLayer_apply (hn2 : n2 = 2 * n)
    (dv omd : FVec Ideal ⟨2, ![R, W]⟩ .f32) (muv : FVec Ideal ⟨2, ![R, n]⟩ .f32)
    (hs : (⟨2, ![R, W]⟩ : Shape).Slices ![0, n] ⟨2, ![R, n]⟩)
    (hc1 : (⟨2, ![R, n]⟩ : Shape).ShapeCasts ⟨3, ![R, n, 1]⟩)
    (hcat : Shape.Concatenates [(⟨3, ![R, n, 1]⟩ : Shape), ⟨3, ![R, n, 1]⟩] ⟨3, ![R, n, 2]⟩ 2)
    (hb : (⟨3, ![R, n, 1]⟩ : Shape).Broadcasts ⟨3, ![R, n, 2]⟩)
    (hc2 : (⟨3, ![R, n, 2]⟩ : Shape).ShapeCasts ⟨2, ![R, n2]⟩)
    (r : Fin R) (c : Fin n2) (hq : c.val / 2 < n) (hw : n + c.val / 2 < W) :
    shapeCast ⟨2, ![R, n2]⟩
      (mulf (broadcastTo ⟨3, ![R, n, 2]⟩ (shapeCast ⟨3, ![R, n, 1]⟩ muv hc1) hb)
        (concatenate ⟨3, ![R, n, 2]⟩ 2
          [⟨⟨3, ![R, n, 1]⟩, shapeCast ⟨3, ![R, n, 1]⟩ (extractStridedSlice ⟨2, ![R, n]⟩ ![0, n] dv hs) hc1⟩,
           ⟨⟨3, ![R, n, 1]⟩, shapeCast ⟨3, ![R, n, 1]⟩ (extractStridedSlice ⟨2, ![R, n]⟩ ![0, n] omd hs) hc1⟩] hcat)) hc2
      (ix2 r c)
      = muv (ix2 r ⟨c.val / 2, hq⟩)
        * (if c.val % 2 = 0 then dv (ix2 r ⟨n + c.val / 2, hw⟩) else omd (ix2 r ⟨n + c.val / 2, hw⟩)) := by
  have hm : c.val % 2 < 2 := Nat.mod_lt _ (by decide)
  -- the flattening [R, n, 2] → [R, 2n] reads entry (r, c / 2, c % 2)
  refine (shapeCast_apply _ hc2 (ix2 r c) (ix3 r ⟨c.val / 2, hq⟩ ⟨c.val % 2, hm⟩) ?_).trans ?_
  · rw [Shape.rowMajor_val_three, Shape.rowMajor_val_two]
    show (r.val * n + c.val / 2) * 2 + c.val % 2 = r.val * n2 + c.val
    have e : r.val * n2 = r.val * n * 2 := by rw [hn2]; ring
    rw [e]; generalize r.val * n = x; omega
  rw [mulf_apply]
  -- the previous level, given a unit axis and spread over the pair
  have e1 : broadcastTo ⟨3, ![R, n, 2]⟩ (shapeCast ⟨3, ![R, n, 1]⟩ muv hc1) hb (ix3 r ⟨c.val / 2, hq⟩ ⟨c.val % 2, hm⟩)
      = muv (ix2 r ⟨c.val / 2, hq⟩) := by
    refine (broadcastTo_apply _ hb _ (ix3 r ⟨c.val / 2, hq⟩ ⟨0, Nat.one_pos⟩) (fun a => ?_)).trans ?_
    · match a with
      | ⟨0, _⟩ =>
        show r.val = if R = 1 then 0 else r.val
        split
        · have := r.isLt; omega
        · rfl
      | ⟨1, _⟩ =>
        show c.val / 2 = if n = 1 then 0 else c.val / 2
        split
        · omega
        · rfl
      | ⟨2, _⟩ =>
        show 0 = if (1 : ℕ) = 1 then 0 else c.val % 2
        rw [if_pos rfl]
    · refine shapeCast_apply muv hc1 _ (ix2 r ⟨c.val / 2, hq⟩) ?_
      rw [Shape.rowMajor_val_three, Shape.rowMajor_val_two]
      show r.val * n + c.val / 2 = (r.val * n + c.val / 2) * 1 + 0
      omega
  rw [e1]
  -- a sliced column given a unit axis
  have e2 : ∀ (x : FVec Ideal ⟨2, ![R, W]⟩ .f32),
      shapeCast ⟨3, ![R, n, 1]⟩ (extractStridedSlice ⟨2, ![R, n]⟩ ![0, n] x hs) hc1 (ix3 r ⟨c.val / 2, hq⟩ ⟨0, Nat.one_pos⟩)
        = x (ix2 r ⟨n + c.val / 2, hw⟩) := by
    intro x
    refine (shapeCast_apply _ hc1 _ (ix2 r ⟨c.val / 2, hq⟩) ?_).trans ?_
    · rw [Shape.rowMajor_val_three, Shape.rowMajor_val_two]
      show r.val * n + c.val / 2 = (r.val * n + c.val / 2) * 1 + 0
      omega
    · refine extractStridedSlice_apply ![0, n] x hs _ (ix2 r ⟨n + c.val / 2, hw⟩) (fun a => ?_)
      match a with
      | ⟨0, _⟩ => show r.val = 0 + r.val; omega
      | ⟨1, _⟩ => show n + c.val / 2 = n + c.val / 2; rfl
  congr 1
  by_cases h0 : c.val % 2 = 0
  · rw [if_pos h0]
    refine (concatenate_pair_apply_left 2 _ _ hcat _ rfl (ix3 r ⟨c.val / 2, hq⟩ ⟨0, Nat.one_pos⟩) (fun b => ?_)).trans (e2 dv)
    match b with
    | ⟨0, _⟩ => rfl
    | ⟨1, _⟩ => rfl
    | ⟨2, _⟩ => show 0 = c.val % 2; omega
  · rw [if_neg h0]
    refine (concatenate_pair_apply_right 2 _ _ hcat _ rfl rfl (ix3 r ⟨c.val / 2, hq⟩ ⟨0, Nat.one_pos⟩) (fun b hb => ?_) ?_).trans (e2 omd)
    · match b with
      | ⟨0, _⟩ => rfl
      | ⟨1, _⟩ => rfl
      | ⟨2, _⟩ => exact absurd rfl hb
    · show 0 + 1 = c.val % 2
      omega

/-- ONE LEVEL ON VECTORS, as the routing probabilities: if the decision vectors hold a row's decisions and
    their complements, and the previous vector holds level l, the result holds level l + 1. -/
theorem vecLayer_mu {l : ℕ} (hn : n = 2 ^ l) (hn2 : n2 = 2 * n) (hW : 2 * n ≤ W) (one : EReal) (drow : Fin R → ℕ → EReal)
    (dv omd : FVec Ideal ⟨2, ![R, W]⟩ .f32) (muv : FVec Ideal ⟨2, ![R, n]⟩ .f32)
    (hs : (⟨2, ![R, W]⟩ : Shape).Slices ![0, n] ⟨2, ![R, n]⟩)
    (hc1 : (⟨2, ![R, n]⟩ : Shape).ShapeCasts ⟨3, ![R, n, 1]⟩)
    (hcat : Shape.Concatenates [(⟨3, ![R, n, 1]⟩ : Shape), ⟨3, ![R, n, 1]⟩] ⟨3, ![R, n, 2]⟩ 2)
    (hb : (⟨3, ![R, n, 1]⟩ : Shape).Broadcasts ⟨3, ![R, n, 2]⟩)
    (hc2 : (⟨3, ![R, n, 2]⟩ : Shape).ShapeCasts ⟨2, ![R, n2]⟩)
    (hd : ∀ (r : Fin R) (k : Fin W), dv (ix2 r k) = drow r k.val)
    (homd : ∀ (r : Fin R) (k : Fin W), omd (ix2 r k) = one - drow r k.val)
    (hmu : ∀ (r : Fin R) (j : Fin n), muv (ix2 r j) = mu one (drow r) l j.val)
    (r : Fin R) (c : Fin n2) :
    shapeCast ⟨2, ![R, n2]⟩
      (mulf (broadcastTo ⟨3, ![R, n, 2]⟩ (shapeCast ⟨3, ![R, n, 1]⟩ muv hc1) hb)
        (concatenate ⟨3, ![R, n, 2]⟩ 2
          [⟨⟨3, ![R, n, 1]⟩, shapeCast ⟨3, ![R, n, 1]⟩ (extractStridedSlice ⟨2, ![R, n]⟩ ![0, n] dv hs) hc1⟩,
           ⟨⟨3, ![R, n, 1]⟩, shapeCast ⟨3, ![R, n, 1]⟩ (extractStridedSlice ⟨2, ![R, n]⟩ ![0, n] omd hs) hc1⟩] hcat)) hc2
      (ix2 r c)
      = mu one (drow r) (l + 1) c.val := by
  have hq : c.val / 2 < n := by have := c.isLt; omega
  have hw : n + c.val / 2 < W := by omega
  rw [vecLayer_apply hn2 dv omd muv hs hc1 hcat hb hc2 r c hq hw, hmu, hd, homd, mu_succ]
  subst hn
  rfl

end Vector

section Tensor

variable {R W n n2 : ℕ}

/-- ONE LEVEL ON TENSORS at entry (r, c): the previous level at the parent c / 2, times the stacked
    decision pair at (r, n + c / 2, c % 2). -/
theorem hostLayer_apply (hn2 : n2 = 2 * n)
    (D : FVec Ideal ⟨3, ![R, W, 2]⟩ .f32) (muv : FVec Ideal ⟨2, ![R, n]⟩ .f32)
    (hs : (⟨3, ![R, W, 2]⟩ : Shape).Slices ![0, n, 0] ⟨3, ![R, n, 2]⟩)
    (hb1 : (⟨2, ![R, n]⟩ : Shape).BroadcastsInDim ⟨3, ![R, n, 1]⟩ ![0, 1])
    (hb2 : (⟨3, ![R, n, 1]⟩ : Shape).BroadcastsInDim ⟨3, ![R, n, 2]⟩ ![0, 1, 2])
    (hc : (⟨3, ![R, n, 2]⟩ : Shape).ShapeCasts ⟨2, ![R, n2]⟩)
    (r : Fin R) (c : Fin n2) (hq : c.val / 2 < n) (hw : n + c.val / 2 < W) :
    shapeCast ⟨2, ![R, n2]⟩
      (mulf (broadcastInDim ⟨3, ![R, n, 2]⟩ ![0, 1, 2] hb2 (broadcastInDim ⟨3, ![R, n, 1]⟩ ![0, 1] hb1 muv))
        (extractStridedSlice ⟨3, ![R, n, 2]⟩ ![0, n, 0] D hs)) hc
      (ix2 r c)
      = muv (ix2 r ⟨c.val / 2, hq⟩) * D (ix3 r ⟨n + c.val / 2, hw⟩ ⟨c.val % 2, Nat.mod_lt _ (by decide)⟩) := by
  have hm : c.val % 2 < 2 := Nat.mod_lt _ (by decide)
  refine (shapeCast_apply _ hc (ix2 r c) (ix3 r ⟨c.val / 2, hq⟩ ⟨c.val % 2, hm⟩) ?_).trans ?_
  · rw [Shape.rowMajor_val_three, Shape.rowMajor_val_two]
    show (r.val * n + c.val / 2) * 2 + c.val % 2 = r.val * n2 + c.val
    have e : r.val * n2 = r.val * n * 2 := by rw [hn2]; ring
    rw [e]; generalize r.val * n = x; omega
  rw [mulf_apply]
  have e1 : broadcastInDim ⟨3, ![R, n, 2]⟩ ![0, 1, 2] hb2 (broadcastInDim ⟨3, ![R, n, 1]⟩ ![0, 1] hb1 muv)
      (ix3 r ⟨c.val / 2, hq⟩ ⟨c.val % 2, hm⟩) = muv (ix2 r ⟨c.val / 2, hq⟩) := by
    refine (broadcastInDim_apply _ hb2 _ _ (ix3 r ⟨c.val / 2, hq⟩ ⟨0, Nat.one_pos⟩) (fun a => ?_)).trans ?_
    · match a with
      | ⟨0, _⟩ =>
        show r.val = if R = 1 then 0 else r.val
        split
        · have := r.isLt; omega
        · rfl
      | ⟨1, _⟩ =>
        show c.val / 2 = if n = 1 then 0 else c.val / 2
        split
        · omega
        · rfl
      | ⟨2, _⟩ =>
        show 0 = if (1 : ℕ) = 1 then 0 else c.val % 2
        rw [if_pos rfl]
    · refine broadcastInDim_apply _ hb1 muv _ (ix2 r ⟨c.val / 2, hq⟩) (fun a => ?_)
      match a with
      | ⟨0, _⟩ =>
        show r.val = if R = 1 then 0 else r.val
        split
        · have := r.isLt; omega
        · rfl
      | ⟨1, _⟩ =>
        show c.val / 2 = if n = 1 then 0 else c.val / 2
        split
        · omega
        · rfl
  rw [e1]
  congr 1
  refine extractStridedSlice_apply ![0, n, 0] D hs _ (ix3 r ⟨n + c.val / 2, hw⟩ ⟨c.val % 2, hm⟩) (fun a => ?_)
  match a with
  | ⟨0, _⟩ => show r.val = 0 + r.val; omega
  | ⟨1, _⟩ => show n + c.val / 2 = n + c.val / 2; rfl
  | ⟨2, _⟩ => show c.val % 2 = 0 + c.val % 2; omega

/-- ONE LEVEL ON TENSORS, as the routing probabilities: if the stacked array holds each row's decisions on
    its first plane and their complements on its second, and the previous array holds level l, the result
    holds level l + 1. -/
theorem hostLayer_mu {l : ℕ} (hn : n = 2 ^ l) (hn2 : n2 = 2 * n) (hW : 2 * n ≤ W) (one : EReal) (drow : Fin R → ℕ → EReal)
    (D : FVec Ideal ⟨3, ![R, W, 2]⟩ .f32) (muv : FVec Ideal ⟨2, ![R, n]⟩ .f32)
    (hs : (⟨3, ![R, W, 2]⟩ : Shape).Slices ![0, n, 0] ⟨3, ![R, n, 2]⟩)
    (hb1 : (⟨2, ![R, n]⟩ : Shape).BroadcastsInDim ⟨3, ![R, n, 1]⟩ ![0, 1])
    (hb2 : (⟨3, ![R, n, 1]⟩ : Shape).BroadcastsInDim ⟨3, ![R, n, 2]⟩ ![0, 1, 2])
    (hc : (⟨3, ![R, n, 2]⟩ : Shape).ShapeCasts ⟨2, ![R, n2]⟩)
    (hD : ∀ (r : Fin R) (k : Fin W) (s : Fin 2),
      D (ix3 r k s) = if s.val = 0 then drow r k.val else one - drow r k.val)
    (hmu : ∀ (r : Fin R) (j : Fin n), muv (ix2 r j) = mu one (drow r) l j.val)
    (r : Fin R) (c : Fin n2) :
    shapeCast ⟨2, ![R, n2]⟩
      (mulf (broadcastInDim ⟨3, ![R, n, 2]⟩ ![0, 1, 2] hb2 (broadcastInDim ⟨3, ![R, n, 1]⟩ ![0, 1] hb1 muv))
        (extractStridedSlice ⟨3, ![R, n, 2]⟩ ![0, n, 0] D hs)) hc
      (ix2 r c)
      = mu one (drow r) (l + 1) c.val := by
  have hq : c.val / 2 < n := by have := c.isLt; omega
  have hw : n + c.val / 2 < W := by omega
  rw [hostLayer_apply hn2 D muv hs hb1 hb2 hc r c hq hw, hmu, hD, mu_succ]
  subst hn
  rfl

end Tensor

section Row

variable {R : ℕ}

set_option maxHeartbeats 4000000 in
/-- THE OUTPUT ROW ASSEMBLED: two ones, then the levels 1 … 10 of widths 2, 4, …, 1024, joined along the
    columns of an [R, 2048] array, read at entry (r, c): column c holds leaf c of row r. -/
theorem rowConcat_apply (one : EReal) (drow : Fin R → ℕ → EReal)
    (p0 : FVec Ideal ⟨2, ![R, 2]⟩ .f32) (p1 : FVec Ideal ⟨2, ![R, 2]⟩ .f32) (p2 : FVec Ideal ⟨2, ![R, 4]⟩ .f32) (p3 : FVec Ideal ⟨2, ![R, 8]⟩ .f32) (p4 : FVec Ideal ⟨2, ![R, 16]⟩ .f32) (p5 : FVec Ideal ⟨2, ![R, 32]⟩ .f32) (p6 : FVec Ideal ⟨2, ![R, 64]⟩ .f32) (p7 : FVec Ideal ⟨2, ![R, 128]⟩ .f32) (p8 : FVec Ideal ⟨2, ![R, 256]⟩ .f32) (p9 : FVec Ideal ⟨2, ![R, 512]⟩ .f32) (p10 : FVec Ideal ⟨2, ![R, 1024]⟩ .f32)
    (hcat : Shape.Concatenates [(⟨2, ![R, 2]⟩ : Shape), (⟨2, ![R, 2]⟩ : Shape), (⟨2, ![R, 4]⟩ : Shape), (⟨2, ![R, 8]⟩ : Shape), (⟨2, ![R, 16]⟩ : Shape), (⟨2, ![R, 32]⟩ : Shape), (⟨2, ![R, 64]⟩ : Shape), (⟨2, ![R, 128]⟩ : Shape), (⟨2, ![R, 256]⟩ : Shape), (⟨2, ![R, 512]⟩ : Shape), (⟨2, ![R, 1024]⟩ : Shape)] ⟨2, ![R, 2048]⟩ 1)
    (h0 : ∀ (r : Fin R) (j : Fin 2), p0 (ix2 r j) = one)
    (h1 : ∀ (r : Fin R) (j : Fin 2), p1 (ix2 r j) = mu one (drow r) 1 j.val)
    (h2 : ∀ (r : Fin R) (j : Fin 4), p2 (ix2 r j) = mu one (drow r) 2 j.val)
    (h3 : ∀ (r : Fin R) (j : Fin 8), p3 (ix2 r j) = mu one (drow r) 3 j.val)
    (h4 : ∀ (r : Fin R) (j : Fin 16), p4 (ix2 r j) = mu one (drow r) 4 j.val)
    (h5 : ∀ (r : Fin R) (j : Fin 32), p5 (ix2 r j) = mu one (drow r) 5 j.val)
    (h6 : ∀ (r : Fin R) (j : Fin 64), p6 (ix2 r j) = mu one (drow r) 6 j.val)
    (h7 : ∀ (r : Fin R) (j : Fin 128), p7 (ix2 r j) = mu one (drow r) 7 j.val)
    (h8 : ∀ (r : Fin R) (j : Fin 256), p8 (ix2 r j) = mu one (drow r) 8 j.val)
    (h9 : ∀ (r : Fin R) (j : Fin 512), p9 (ix2 r j) = mu one (drow r) 9 j.val)
    (h10 : ∀ (r : Fin R) (j : Fin 1024), p10 (ix2 r j) = mu one (drow r) 10 j.val)
    (r : Fin R) (c : Fin 2048) :
    concatenate ⟨2, ![R, 2048]⟩ 1 [⟨⟨2, ![R, 2]⟩, p0⟩, ⟨⟨2, ![R, 2]⟩, p1⟩, ⟨⟨2, ![R, 4]⟩, p2⟩, ⟨⟨2, ![R, 8]⟩, p3⟩, ⟨⟨2, ![R, 16]⟩, p4⟩, ⟨⟨2, ![R, 32]⟩, p5⟩, ⟨⟨2, ![R, 64]⟩, p6⟩, ⟨⟨2, ![R, 128]⟩, p7⟩, ⟨⟨2, ![R, 256]⟩, p8⟩, ⟨⟨2, ![R, 512]⟩, p9⟩, ⟨⟨2, ![R, 1024]⟩, p10⟩] hcat (ix2 r c) = leaf one (drow r) c.val := by
  let xs : List ((s : Shape) × (s.Idx → EReal)) := [⟨⟨2, ![R, 2]⟩, p0⟩, ⟨⟨2, ![R, 2]⟩, p1⟩, ⟨⟨2, ![R, 4]⟩, p2⟩, ⟨⟨2, ![R, 8]⟩, p3⟩, ⟨⟨2, ![R, 16]⟩, p4⟩, ⟨⟨2, ![R, 32]⟩, p5⟩, ⟨⟨2, ![R, 64]⟩, p6⟩, ⟨⟨2, ![R, 128]⟩, p7⟩, ⟨⟨2, ![R, 256]⟩, p8⟩, ⟨⟨2, ![R, 512]⟩, p9⟩, ⟨⟨2, ![R, 1024]⟩, p10⟩]
  show concatenate ⟨2, ![R, 2048]⟩ 1 xs hcat (ix2 r c) = _
  by_cases hk0 : c.val < 2
  · refine (concatenate_apply_piece 1 xs hcat (ix2 r c) 0 (by show (0 : ℕ) < 11; omega) _ _ rfl rfl 0 rfl
      (ix2 r ⟨c.val - 0, by omega⟩) (fun b hb => ?_) ?_).trans ?_
    · match b with
      | ⟨0, _⟩ => rfl
      | ⟨1, _⟩ => exact absurd rfl hb
    · show 0 + (c.val - 0) = c.val
      omega
    · rw [h0, leaf_lt_two one (drow r) hk0]
  by_cases hk1 : c.val < 4
  · refine (concatenate_apply_piece 1 xs hcat (ix2 r c) 1 (by show (1 : ℕ) < 11; omega) _ _ rfl rfl 2 rfl
      (ix2 r ⟨c.val - 2, by omega⟩) (fun b hb => ?_) ?_).trans ?_
    · match b with
      | ⟨0, _⟩ => rfl
      | ⟨1, _⟩ => exact absurd rfl hb
    · show 2 + (c.val - 2) = c.val
      omega
    · rw [h1, leaf_of_range one (drow r) 1 (by decide) (by norm_num <;> omega) (by norm_num <;> omega)]
      norm_num
  by_cases hk2 : c.val < 8
  · refine (concatenate_apply_piece 1 xs hcat (ix2 r c) 2 (by show (2 : ℕ) < 11; omega) _ _ rfl rfl 4 rfl
      (ix2 r ⟨c.val - 4, by omega⟩) (fun b hb => ?_) ?_).trans ?_
    · match b with
      | ⟨0, _⟩ => rfl
      | ⟨1, _⟩ => exact absurd rfl hb
    · show 4 + (c.val - 4) = c.val
      omega
    · rw [h2, leaf_of_range one (drow r) 2 (by decide) (by norm_num <;> omega) (by norm_num <;> omega)]
      norm_num
  by_cases hk3 : c.val < 16
  · refine (concatenate_apply_piece 1 xs hcat (ix2 r c) 3 (by show (3 : ℕ) < 11; omega) _ _ rfl rfl 8 rfl
      (ix2 r ⟨c.val - 8, by omega⟩) (fun b hb => ?_) ?_).trans ?_
    · match b with
      | ⟨0, _⟩ => rfl
      | ⟨1, _⟩ => exact absurd rfl hb
    · show 8 + (c.val - 8) = c.val
      omega
    · rw [h3, leaf_of_range one (drow r) 3 (by decide) (by norm_num <;> omega) (by norm_num <;> omega)]
      norm_num
  by_cases hk4 : c.val < 32
  · refine (concatenate_apply_piece 1 xs hcat (ix2 r c) 4 (by show (4 : ℕ) < 11; omega) _ _ rfl rfl 16 rfl
      (ix2 r ⟨c.val - 16, by omega⟩) (fun b hb => ?_) ?_).trans ?_
    · match b with
      | ⟨0, _⟩ => rfl
      | ⟨1, _⟩ => exact absurd rfl hb
    · show 16 + (c.val - 16) = c.val
      omega
    · rw [h4, leaf_of_range one (drow r) 4 (by decide) (by norm_num <;> omega) (by norm_num <;> omega)]
      norm_num
  by_cases hk5 : c.val < 64
  · refine (concatenate_apply_piece 1 xs hcat (ix2 r c) 5 (by show (5 : ℕ) < 11; omega) _ _ rfl rfl 32 rfl
      (ix2 r ⟨c.val - 32, by omega⟩) (fun b hb => ?_) ?_).trans ?_
    · match b with
      | ⟨0, _⟩ => rfl
      | ⟨1, _⟩ => exact absurd rfl hb
    · show 32 + (c.val - 32) = c.val
      omega
    · rw [h5, leaf_of_range one (drow r) 5 (by decide) (by norm_num <;> omega) (by norm_num <;> omega)]
      norm_num
  by_cases hk6 : c.val < 128
  · refine (concatenate_apply_piece 1 xs hcat (ix2 r c) 6 (by show (6 : ℕ) < 11; omega) _ _ rfl rfl 64 rfl
      (ix2 r ⟨c.val - 64, by omega⟩) (fun b hb => ?_) ?_).trans ?_
    · match b with
      | ⟨0, _⟩ => rfl
      | ⟨1, _⟩ => exact absurd rfl hb
    · show 64 + (c.val - 64) = c.val
      omega
    · rw [h6, leaf_of_range one (drow r) 6 (by decide) (by norm_num <;> omega) (by norm_num <;> omega)]
      norm_num
  by_cases hk7 : c.val < 256
  · refine (concatenate_apply_piece 1 xs hcat (ix2 r c) 7 (by show (7 : ℕ) < 11; omega) _ _ rfl rfl 128 rfl
      (ix2 r ⟨c.val - 128, by omega⟩) (fun b hb => ?_) ?_).trans ?_
    · match b with
      | ⟨0, _⟩ => rfl
      | ⟨1, _⟩ => exact absurd rfl hb
    · show 128 + (c.val - 128) = c.val
      omega
    · rw [h7, leaf_of_range one (drow r) 7 (by decide) (by norm_num <;> omega) (by norm_num <;> omega)]
      norm_num
  by_cases hk8 : c.val < 512
  · refine (concatenate_apply_piece 1 xs hcat (ix2 r c) 8 (by show (8 : ℕ) < 11; omega) _ _ rfl rfl 256 rfl
      (ix2 r ⟨c.val - 256, by omega⟩) (fun b hb => ?_) ?_).trans ?_
    · match b with
      | ⟨0, _⟩ => rfl
      | ⟨1, _⟩ => exact absurd rfl hb
    · show 256 + (c.val - 256) = c.val
      omega
    · rw [h8, leaf_of_range one (drow r) 8 (by decide) (by norm_num <;> omega) (by norm_num <;> omega)]
      norm_num
  by_cases hk9 : c.val < 1024
  · refine (concatenate_apply_piece 1 xs hcat (ix2 r c) 9 (by show (9 : ℕ) < 11; omega) _ _ rfl rfl 512 rfl
      (ix2 r ⟨c.val - 512, by omega⟩) (fun b hb => ?_) ?_).trans ?_
    · match b with
      | ⟨0, _⟩ => rfl
      | ⟨1, _⟩ => exact absurd rfl hb
    · show 512 + (c.val - 512) = c.val
      omega
    · rw [h9, leaf_of_range one (drow r) 9 (by decide) (by norm_num <;> omega) (by norm_num <;> omega)]
      norm_num
  have hk10 : c.val < 2048 := c.isLt
  · refine (concatenate_apply_piece 1 xs hcat (ix2 r c) 10 (by show (10 : ℕ) < 11; omega) _ _ rfl rfl 1024 rfl
      (ix2 r ⟨c.val - 1024, by omega⟩) (fun b hb => ?_) ?_).trans ?_
    · match b with
      | ⟨0, _⟩ => rfl
      | ⟨1, _⟩ => exact absurd rfl hb
    · show 1024 + (c.val - 1024) = c.val
      omega
    · rw [h10, leaf_of_range one (drow r) 10 (by decide) (by norm_num <;> omega) (by norm_num <;> omega)]
      norm_num

end Row

end Cert.LibTreeLayers

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.Spec.lean ====
/-
  What both programs compute: a soft decision tree of depth 10 over 1024 features.

  For an input row x_b (1024 features) and a feature-selection matrix fm (1024 × 1024), node k of the tree
  decides with probability

      dec b k = sigmoid (Σ_q x (b, q) · fm (q, k)),      sigmoid f = 1 / (1 + e^(-f)),

  and the output row is the leading pair of ones followed by the levels 1 … 10 of routing probabilities
  (LibTreeLayers: mu and leaf), 2048 columns in all.  Over the extended reals the sigmoid is one function
  whether it is spelt as one operation or as the quotient 1 / (1 + exp (-f)) with the float literal 1.0.
-/
import Idealize.ShloMosaic.Lib.ValueIdx
import Idealize.ShloMosaic.PureOps.Ideal
import proofs.«161598_j53824530153725_1_alg».proof.Proof.LibTreeLayers
import proofs.«161598_j53824530153725_1_alg».proof.Proof.LibConsts

noncomputable section

open scoped BigOperators

namespace Cert.Tree

open Idealize.ShloMosaic Idealize.ShloMosaic.ValueIdx Cert.LibTreeLayers

/-- The float literal 1.0, as the extended real its bits denote. -/
def one : EReal := Ideal.ofBits .f32 0x3F800000#32

/-- The decision of node k on row b of a block of R rows: the sigmoid of the row's product with column k of the
    feature-selection matrix (columns past the matrix never enter the tree; they read 0 here). -/
def dec {R : ℕ} (x : (⟨2, ![R, 1024]⟩ : Shape).Idx → EReal) (fm : (⟨2, ![1024, 1024]⟩ : Shape).Idx → EReal)
    (b : Fin R) (k : ℕ) : EReal :=
  if h : k < 1024 then Ideal.logistic (∑ q : Fin 1024, x (ix2 b q) * fm (ix2 q ⟨k, h⟩)) else 0

theorem dec_fin {R : ℕ} (x : (⟨2, ![R, 1024]⟩ : Shape).Idx → EReal) (fm : (⟨2, ![1024, 1024]⟩ : Shape).Idx → EReal)
    (b : Fin R) (k : Fin 1024) :
    dec x fm b k.val = Ideal.logistic (∑ q : Fin 1024, x (ix2 b q) * fm (ix2 q k)) := dif_pos k.isLt

/-- The result array as one function of the two argument arrays, entry by entry. -/
def G (x : (⟨2, ![32768, 1024]⟩ : Shape).Idx → EReal) (fm : (⟨2, ![1024, 1024]⟩ : Shape).Idx → EReal) :
    (⟨2, ![32768, 2048]⟩ : Shape).Idx → EReal :=
  fun i => leaf one (dec x fm ⟨(i 0).val, idx2_lt0 i⟩) (i 1).val

theorem G_apply (x : (⟨2, ![32768, 1024]⟩ : Shape).Idx → EReal) (fm : (⟨2, ![1024, 1024]⟩ : Shape).Idx → EReal)
    (b : Fin 32768) (c : Fin 2048) : G x fm (ix2 b c) = leaf one (dec x fm b) c.val := rfl

/-- The quotient 1.0 / (1.0 + exp (-f)) is the sigmoid of f, on every extended real. -/
theorem sigmoid_expand (f : Ideal .f32) :
    FloatOps.hostDivf (F := Ideal) (φ := .f32) one
      (FloatOps.addf (F := Ideal) (φ := .f32) one (FloatOps.hostUnary .exp (FloatOps.hostNegf f))) = Ideal.logistic f := by
  unfold one
  rw [Cert.Consts.ofBits_one, EReal.coe_one]
  rfl

end Cert.Tree

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.KernelPay.lean ====
/-
  The kernel's body, read entry by entry on one block of 512 rows.

  The body multiplies the block of x (rounded to bf16, which changes nothing over the extended reals) with the
  whole feature-selection matrix into a zero accumulator, takes the sigmoid as one operation, forms 1 - d, and
  computes the ten levels of the tree one after the other, each from slices of d and 1 - d at the level's
  nodes; the leading ones and the ten levels are joined along the columns of the [512, 2048] block it stores.
-/
import proofs.«161598_j53824530153725_1_alg».proof.Proof.Gen.KernelIdeal.Skeleton
import proofs.«161598_j53824530153725_1_alg».proof.Proof.Spec
import proofs.«161598_j53824530153725_1_alg».proof.Proof.LibDense

noncomputable section

open scoped BigOperators

namespace Cert.Tree.Ker

open Cert.KernelIdeal Cert.KernelIdeal.Gen
open Idealize.ShloMosaic Idealize.ShloMosaic.ValueIdx Cert.LibTreeLayers Cert.Tree

/-! ## The product's operand indices -/

theorem lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-! ## The decisions -/

variable (v0 : Vec Ideal S512x1024 .f32) (v2 : Vec Ideal S1024x1024 .bf16)

/-- The block's decisions: the sigmoid of the row-by-column product. -/
theorem pay2_apply (r : Fin 512) (k : Fin 1024) : k0_pay2 (F := Ideal) v0 v2 (ix2 r k) = dec v0 v2 r k.val := by
  rw [dec_fin]
  unfold k0_pay2
  show Ideal.logistic (FloatOps.matmul dot_S512x1024_S1024x1024_S512x1024_1_0_0_1_n_n none (truncf .bf16 v0 bitsLt_bf16_f32)
    (shapeCast S1024x1024 v2 shapeCasts_S1024x1024_S1024x1024) (constant (F := Ideal) S512x1024 .f32 0x00000000#32) (ix2 r k)) = _
  rw [Cert.LibDense.matmul_zero_apply dot_S512x1024_S1024x1024_S512x1024_1_0_0_1_n_n rfl rfl lhs0 lhs1 rhs0 rhs1, shapeCast_self]
  rfl

/-- Their complements. -/
theorem pay3_apply (r : Fin 512) (k : Fin 1024) : k0_pay3 (F := Ideal) v0 v2 (ix2 r k) = one - dec v0 v2 r k.val := by
  unfold k0_pay3
  show one - k0_pay2 (F := Ideal) v0 v2 (ix2 r k) = _
  rw [pay2_apply]

/-- The leading pair of ones. -/
theorem pay4_apply (r : Fin 512) (j : Fin 2) : k0_pay4 (F := Ideal) (ix2 r j) = one := rfl

/-! ## The levels computed before the last store's payload -/

/-- Level 1 of the block: the root's two children. -/
theorem pay5_apply (r : Fin 512) (j : Fin 2) :
    k0_pay5 (F := Ideal) v0 v2 (ix2 r j) = mu one (dec v0 v2 r) 1 j.val :=
  vecLayer_mu (l := 0) (n := 1) (n2 := 2) (W := 1024) rfl rfl (by decide) one (dec v0 v2)
    (k0_pay2 (F := Ideal) v0 v2) (k0_pay3 (F := Ideal) v0 v2)
    (broadcast S512x1 (Scalar.ofBits (F := Ideal) .f32 0x3F800000#32)) _ _ _ _ _
    (pay2_apply v0 v2) (pay3_apply v0 v2) (fun _ _ => rfl) r j

/-- Level 2 of the block: 4 nodes. -/
theorem pay6_apply (r : Fin 512) (j : Fin 4) :
    k0_pay6 (F := Ideal) v0 v2 (ix2 r j) = mu one (dec v0 v2 r) 2 j.val :=
  vecLayer_mu (l := 1) (n := 2) (n2 := 4) (W := 1024) rfl rfl (by decide) one (dec v0 v2)
    (k0_pay2 (F := Ideal) v0 v2) (k0_pay3 (F := Ideal) v0 v2) (k0_pay5 (F := Ideal) v0 v2) _ _ _ _ _
    (pay2_apply v0 v2) (pay3_apply v0 v2) (pay5_apply v0 v2) r j

/-- Level 3 of the block: 8 nodes. -/
theorem pay7_apply (r : Fin 512) (j : Fin 8) :
    k0_pay7 (F := Ideal) v0 v2 (ix2 r j) = mu one (dec v0 v2 r) 3 j.val :=
  vecLayer_mu (l := 2) (n := 4) (n2 := 8) (W := 1024) rfl rfl (by decide) one (dec v0 v2)
    (k0_pay2 (F := Ideal) v0 v2) (k0_pay3 (F := Ideal) v0 v2) (k0_pay6 (F := Ideal) v0 v2) _ _ _ _ _
    (pay2_apply v0 v2) (pay3_apply v0 v2) (pay6_apply v0 v2) r j

/-- Level 4 of the block: 16 nodes. -/
theorem pay8_apply (r : Fin 512) (j : Fin 16) :
    k0_pay8 (F := Ideal) v0 v2 (ix2 r j) = mu one (dec v0 v2 r) 4 j.val :=
  vecLayer_mu (l := 3) (n := 8) (n2 := 16) (W := 1024) rfl rfl (by decide) one (dec v0 v2)
    (k0_pay2 (F := Ideal) v0 v2) (k0_pay3 (F := Ideal) v0 v2) (k0_pay7 (F := Ideal) v0 v2) _ _ _ _ _
    (pay2_apply v0 v2) (pay3_apply v0 v2) (pay7_apply v0 v2) r j

/-! ## The stored block -/

/-- The stored block at entry (r, c), from what its eight operands hold: the decisions and complements, the
    leading ones, the levels 1 … 4, and the stacked slices of level 5's nodes. -/
theorem pay1_apply (drow : Fin 512 → ℕ → EReal)
    (v5 v7 : FVec Ideal S512x1024 .f32) (v9 v18 : FVec Ideal S512x2 .f32) (v27 : FVec Ideal S512x4 .f32)
    (v36 : FVec Ideal S512x8 .f32) (v45 : FVec Ideal S512x16 .f32) (v50 : FVec Ideal S512x16x2 .f32)
    (h5 : ∀ (r : Fin 512) (k : Fin 1024), v5 (ix2 r k) = drow r k.val)
    (h7 : ∀ (r : Fin 512) (k : Fin 1024), v7 (ix2 r k) = one - drow r k.val)
    (h9 : ∀ (r : Fin 512) (j : Fin 2), v9 (ix2 r j) = one)
    (h18 : ∀ (r : Fin 512) (j : Fin 2), v18 (ix2 r j) = mu one (drow r) 1 j.val)
    (h27 : ∀ (r : Fin 512) (j : Fin 4), v27 (ix2 r j) = mu one (drow r) 2 j.val)
    (h36 : ∀ (r : Fin 512) (j : Fin 8), v36 (ix2 r j) = mu one (drow r) 3 j.val)
    (h45 : ∀ (r : Fin 512) (j : Fin 16), v45 (ix2 r j) = mu one (drow r) 4 j.val)
    (h50 : v50 = concatenate S512x16x2 2
      [⟨S512x16x1, shapeCast S512x16x1 (extractStridedSlice S512x16 ![0, 16] v5 slices_S512x1024_o0_16_S512x16) shapeCasts_S512x16_S512x16x1⟩,
       ⟨S512x16x1, shapeCast S512x16x1 (extractStridedSlice S512x16 ![0, 16] v7 slices_S512x1024_o0_16_S512x16) shapeCasts_S512x16_S512x16x1⟩]
      concatenates_S512x16x1_S512x16x1_S512x16x2_d2)
    (r : Fin 512) (c : Fin 2048) :
    k0_pay1 (F := Ideal) v5 v7 v9 v18 v27 v36 v45 v50 (ix2 r c) = leaf one (drow r) c.val := by
  subst h50
  have m5 := fun (r : Fin 512) (j : Fin 32) =>
    vecLayer_mu (l := 4) (n := 16) (n2 := 32) (W := 1024) rfl rfl (by decide) one drow v5 v7 v45
      slices_S512x1024_o0_16_S512x16 shapeCasts_S512x16_S512x16x1 concatenates_S512x16x1_S512x16x1_S512x16x2_d2 broadcasts_S512x16x1_S512x16x2 shapeCasts_S512x16x2_S512x32
      h5 h7 h45 r j
  have m6 := fun (r : Fin 512) (j : Fin 64) =>
    vecLayer_mu (l := 5) (n := 32) (n2 := 64) (W := 1024) rfl rfl (by decide) one drow v5 v7 _
      slices_S512x1024_o0_32_S512x32 shapeCasts_S512x32_S512x32x1 concatenates_S512x32x1_S512x32x1_S512x32x2_d2 broadcasts_S512x32x1_S512x32x2 shapeCasts_S512x32x2_S512x64
      h5 h7 m5 r j
  have m7 := fun (r : Fin 512) (j : Fin 128) =>
    vecLayer_mu (l := 6) (n := 64) (n2 := 128) (W := 1024) rfl rfl (by decide) one drow v5 v7 _
      slices_S512x1024_o0_64_S512x64 shapeCasts_S512x64_S512x64x1 concatenates_S512x64x1_S512x64x1_S512x64x2_d2 broadcasts_S512x64x1_S512x64x2 shapeCasts_S512x64x2_S512x128
      h5 h7 m6 r j
  have m8 := fun (r : Fin 512) (j : Fin 256) =>
    vecLayer_mu (l := 7) (n := 128) (n2 := 256) (W := 1024) rfl rfl (by decide) one drow v5 v7 _
      slices_S512x1024_o0_128_S512x128 shapeCasts_S512x128_S512x128x1 concatenates_S512x128x1_S512x128x1_S512x128x2_d2 broadcasts_S512x128x1_S512x128x2 shapeCasts_S512x128x2_S512x256
      h5 h7 m7 r j
  have m9 := fun (r : Fin 512) (j : Fin 512) =>
    vecLayer_mu (l := 8) (n := 256) (n2 := 512) (W := 1024) rfl rfl (by decide) one drow v5 v7 _
      slices_S512x1024_o0_256_S512x256 shapeCasts_S512x256_S512x256x1 concatenates_S512x256x1_S512x256x1_S512x256x2_d2 broadcasts_S512x256x1_S512x256x2 shapeCasts_S512x256x2_S512x512
      h5 h7 m8 r j
  have m10 := fun (r : Fin 512) (j : Fin 1024) =>
    vecLayer_mu (l := 9) (n := 512) (n2 := 1024) (W := 1024) rfl rfl (by decide) one drow v5 v7 _
      slices_S512x1024_o0_512_S512x512 shapeCasts_S512x512_S512x512x1 concatenates_S512x512x1_S512x512x1_S512x512x2_d2 broadcasts_S512x512x1_S512x512x2 shapeCasts_S512x512x2_S512x1024
      h5 h7 m9 r j
  unfold k0_pay1
  exact rowConcat_apply one drow v9 v18 v27 v36 v45 _ _ _ _ _ _
    concatenates_S512x2_S512x2_S512x4_S512x8_S512x16_S512x32_S512x64_S512x128_S512x256_S512x512_S512x1024_S512x2048_d1
    h9 h18 h27 h36 h45 m5 m6 m7 m8 m9 m10 r c

/-- THE STORED BLOCK at entry (r, c) is leaf c of the block's row r. -/
theorem body_apply (r : Fin 512) (c : Fin 2048) :
    k0_pay1 (F := Ideal) (k0_pay2 v0 v2) (k0_pay3 v0 v2) (k0_pay4 (F := Ideal)) (k0_pay5 v0 v2) (k0_pay6 v0 v2)
      (k0_pay7 v0 v2) (k0_pay8 v0 v2) (k0_pay9 v0 v2) (ix2 r c) = leaf one (dec v0 v2 r) c.val :=
  pay1_apply (dec v0 v2) _ _ _ _ _ _ _ _ (pay2_apply v0 v2) (pay3_apply v0 v2) pay4_apply (pay5_apply v0 v2)
    (pay6_apply v0 v2) (pay7_apply v0 v2) (pay8_apply v0 v2) rfl r c

end Cert.Tree.Ker

end
-- ==== Proof.KernelValue.lean ====
/-
  From the kernel's blocks to its result array, and the claims.

  Grid point t stages rows 512 t … 512 t + 511 of x and the whole feature-selection matrix (rounded to bf16 on
  the host beforehand, the identity over the extended reals), and writes back rows 512 t … 512 t + 511 of the
  result.  Row r of that block is the tree's output row of the array's row 512 t + r; the 64 blocks cover the
  result array, so it ends holding the tree's output G of the two arguments — which is what the reference
  computes from the same arguments.
-/
import proofs.«161598_j53824530153725_1_alg».proof.Proof.Gen.KernelIdeal.Value
import proofs.«161598_j53824530153725_1_alg».proof.Proof.KernelPay
import Idealize.ShloMosaic.Lib.StableHlo.Run

noncomputable section

open scoped BigOperators

namespace Cert.Tree.KerValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.LibTreeLayers Cert.Tree Cert.Tree.Ker

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 64 grid points: x and the result move down one block of rows per point,
    the matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The matrix the region stages is the second argument, rounded to bf16 by the host. -/
theorem V_main_v0 (c : Dev nD) :
    (V m c main_v0 : S1024x1024.Idx → EReal)
      = truncf (F := Ideal) .bf16 (m ((c : Thread nD τ).loc main_arg1) : S1024x1024.Idx → EReal) bitsLt_bf16_f32 := by
  dsimp only [Gen.V, Gen.hostOps0]
  after_results

/-- Entry (r, q) of x's block at point t is entry (512 t + r, q) of the first argument. -/
theorem iblk0_apply (c : Dev nD) (t : Fin cfg0.N) (r : Fin 512) (q : Fin 1024) (b : Fin 32768)
    (hb : b.val = 512 * t.val + r.val) :
    (iblk m c 0 t : Vec Ideal S512x1024 .f32) (ix2 r q)
      = (m ((c : Thread nD τ).loc main_arg0) : S32768x1024.Idx → EReal) (ix2 b q) := by
  obtain ⟨e00, e01, -, -, -, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 512 + 1 * r.val = b.val; rw [e00, hb]; omega
  | ⟨1, _⟩ => show win0_0.index t (1 : Fin 2) * 1024 + 1 * q.val = q.val; rw [e01]; omega

/-- The matrix's block at every point is the whole second argument. -/
theorem iblk1_apply (c : Dev nD) (t : Fin cfg0.N) (q k : Fin 1024) :
    (iblk m c 1 t : Vec Ideal S1024x1024 .bf16) (ix2 q k)
      = (m ((c : Thread nD τ).loc main_arg1) : S1024x1024.Idx → EReal) (ix2 q k) := by
  obtain ⟨-, -, e10, e11, -, -⟩ := idx_facts t
  unfold iblk
  rw [View.read_apply]
  show V m c main_v0 _ = m (c.tc.loc main_arg1) _
  rw [V_main_v0]
  show (m (c.tc.loc main_arg1) : S1024x1024.Idx → EReal) _ = m (c.tc.loc main_arg1) _
  congr 1
  funext a
  apply Fin.ext
  match a with
  | ⟨0, _⟩ => show win0_1.index t (0 : Fin 2) * 1024 + 1 * q.val = q.val; rw [e10]; omega
  | ⟨1, _⟩ => show win0_1.index t (1 : Fin 2) * 1024 + 1 * k.val = k.val; rw [e11]; omega

/-- The decisions of the block's row r are those of the array's row 512 t + r. -/
theorem dec_block (c : Dev nD) (t : Fin cfg0.N) (r : Fin 512) (b : Fin 32768) (hb : b.val = 512 * t.val + r.val) :
    dec (iblk m c 0 t : Vec Ideal S512x1024 .f32) (iblk m c 1 t : Vec Ideal S1024x1024 .bf16) r
      = dec (m ((c : Thread nD τ).loc main_arg0) : S32768x1024.Idx → EReal)
          (m ((c : Thread nD τ).loc main_arg1) : S1024x1024.Idx → EReal) b := by
  funext k
  unfold dec
  by_cases hk : k < 1024
  · rw [dif_pos hk, dif_pos hk]
    congr 1
    refine Finset.sum_congr rfl fun q _ => ?_
    rw [iblk0_apply m c t r q b hb, iblk1_apply m c t q ⟨k, hk⟩]
  · rw [dif_neg hk, dif_neg hk]

/-- WHAT POINT t WRITES BACK is block t of G of the two arguments. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨-, -, -, -, e20, e21⟩ := idx_facts t
  have hN : grid0.N = 64 := N_0
  have ht : t.val < 64 := hN ▸ t.isLt
  rw [Value.flushed2]
  unfold out0_2
  rw [View.canon_unit_zero hz]
  simp only [View.ld_unit_zero (S := S512x1024) hz, View.ld_unit_zero (S := S1024x1024) hz]
  funext y
  obtain ⟨r, cc, rfl⟩ : ∃ (r : Fin 512) (cc : Fin 2048), y = ix2 r cc := ⟨y 0, y 1, eq_ix2 y⟩
  have hb : 512 * t.val + r.val < 32768 := by have := r.isLt; omega
  have he : ((cfg0.win 2).blk t).view.emb (ix2 r cc) = ix2 (⟨512 * t.val + r.val, hb⟩ : Fin 32768) cc := by
    funext a
    apply Fin.ext
    match a with
    | ⟨0, _⟩ => show win0_2.index t (0 : Fin 2) * 512 + 1 * r.val = 512 * t.val + r.val; rw [e20]; omega
    | ⟨1, _⟩ => show win0_2.index t (1 : Fin 2) * 2048 + 1 * cc.val = cc.val; rw [e21]; omega
  show k0_pay1 (F := Ideal) (k0_pay2 (iblk m c 0 t) (iblk m c 1 t)) (k0_pay3 (iblk m c 0 t) (iblk m c 1 t)) (k0_pay4 (F := Ideal))
      (k0_pay5 (iblk m c 0 t) (iblk m c 1 t)) (k0_pay6 (iblk m c 0 t) (iblk m c 1 t)) (k0_pay7 (iblk m c 0 t) (iblk m c 1 t))
      (k0_pay8 (iblk m c 0 t) (iblk m c 1 t)) (k0_pay9 (iblk m c 0 t) (iblk m c 1 t)) (ix2 r cc)
    = G (m ((c : Thread nD τ).loc main_arg0)) (m ((c : Thread nD τ).loc main_arg1)) (((cfg0.win 2).blk t).view.emb (ix2 r cc))
  rw [he, G_apply]
  refine (body_apply (iblk m c 0 t) (iblk m c 1 t) r cc).trans ?_
  rw [dec_block m c t r ⟨512 * t.val + r.val, hb⟩ rfl]

/-- An index of the result array is in point t's block iff each coordinate is in the block's range on its axis. -/
theorem mem_blk (t : Fin cfg0.N) (i : S32768x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v1).slice (win0_2.rect t)).set ↔ _
  rw [View.set_slice_whole, Rect.mem_set_unit]
  exact Iff.rfl

/-- Row i lies in the block of point i / 512: the 64 blocks cover the result array. -/
theorem cover (i : S32768x2048.Idx) : ∃ t : Fin cfg0.N, (cfg0.win 2).flush t = true ∧ i ∈ ((cfg0.win 2).blk t).view.set := by
  have hN : grid0.N = 64 := N_0
  have hi0 : (i 0).val < 32768 := (i 0).isLt
  have hi1 : (i 1).val < 2048 := (i 1).isLt
  let t : Fin cfg0.N := ⟨(i 0).val / 512, by show (i 0).val / 512 < grid0.N; rw [hN]; omega⟩
  obtain ⟨-, -, -, -, e20, e21⟩ := idx_facts t
  have e20' : win0_2.index t (0 : Fin 2) = (i 0).val / 512 := e20
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    rw [e20']; omega
  | ⟨1, _⟩ =>
    show win0_2.index t (1 : Fin 2) * 2048 ≤ (i 1).val ∧ (i 1).val < win0_2.index t (1 : Fin 2) * 2048 + 2048
    rw [e21]; omega

/-- THE RESULT ARRAY after the run is G of the two arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

/-- The kernel's run, read: the result at G of the arguments, the arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Tree.KerValue

end
-- ==== Proof.RefValue.lean ====
/-
  The reference, read entry by entry: its result array is the tree's output G of its two arguments.

  The reference forms the product x · fm once, the sigmoid as 1 / (1 + exp (-f)), stacks (d, 1 - d) on a new
  last axis, and from it computes the ten levels one after the other, each as the previous level broadcast
  over the pair times the slice of the stacked decisions at the level's nodes; the pieces are joined along
  the columns.
-/
import proofs.«161598_j53824530153725_1_alg».proof.Proof.Gen.ReferenceIdeal.Read
import proofs.«161598_j53824530153725_1_alg».proof.Proof.Spec

noncomputable section

open scoped BigOperators

namespace Cert.Tree.Ref

open Cert.ReferenceIdeal Cert.ReferenceIdeal.Gen Cert.ReferenceIdeal.Read
open Idealize.ShloMosaic Idealize.ShloMosaic.ValueIdx Cert.LibTreeLayers Cert.Tree

variable (x0 : (⟨S32768x1024, .f32⟩ : BufTy).Contents (Elt Ideal)) (x1 : (⟨S1024x1024, .f32⟩ : BufTy).Contents (Elt Ideal))

/-- The reference's decisions: the quotient form of the sigmoid, of the row-by-column product. -/
theorem ref_d (b : Fin 32768) (k : Fin 1024) : val_main_v6 (F := Ideal) x0 x1 (ix2 b k) = dec x0 x1 b k.val := by
  rw [val_main_v6_apply, val_main_v5_apply, val_main_cst_0_apply, val_main_v4_apply, val_main_v3_apply,
    val_main_cst_apply, val_main_v2_apply, val_main_v1_apply, val_main_v0_apply, dec_fin]
  have el : ∀ q : Fin 1024, lidx_main_v0 (ix2 b k) q = ix2 b q := fun q => funext fun a => by
    match a with
    | ⟨0, _⟩ => rfl
    | ⟨1, _⟩ => rfl
  have er : ∀ q : Fin 1024, ridx_main_v0 (ix2 b k) q = ix2 q k := fun q => funext fun a => by
    match a with
    | ⟨0, _⟩ => rfl
    | ⟨1, _⟩ => rfl
  simp only [el, er]
  exact sigmoid_expand _

/-- The stacked pair: the decision on plane 0, its complement on plane 1. -/
theorem ref_D (b : Fin 32768) (k : Fin 1024) (s : Fin 2) :
    val_main_v11 (F := Ideal) x0 x1 (ix3 b k s) = if s.val = 0 then dec x0 x1 b k.val else one - dec x0 x1 b k.val := by
  unfold val_main_v11
  have e9 : idx_main_v9 (ix3 b k ⟨0, Nat.one_pos⟩) = ix2 b k := funext fun a => by
    match a with
    | ⟨0, _⟩ => rfl
    | ⟨1, _⟩ => rfl
  have e10 : idx_main_v10 (ix3 b k ⟨0, Nat.one_pos⟩) = ix2 b k := funext fun a => by
    match a with
    | ⟨0, _⟩ => rfl
    | ⟨1, _⟩ => rfl
  by_cases h0 : s.val = 0
  · rw [if_pos h0]
    refine (concatenate_pair_apply_left 2 _ _ concatenates_S32768x1024x1_S32768x1024x1_S32768x1024x2_d2 _ rfl
      (ix3 b k ⟨0, Nat.one_pos⟩) (fun a => ?_)).trans ?_
    · match a with
      | ⟨0, _⟩ => rfl
      | ⟨1, _⟩ => rfl
      | ⟨2, _⟩ => exact h0.symm
    · rw [val_main_v9_apply, e9]
      exact ref_d x0 x1 b k
  · rw [if_neg h0]
    have h1 : s.val = 1 := by have := s.isLt; omega
    refine (concatenate_pair_apply_right 2 _ _ concatenates_S32768x1024x1_S32768x1024x1_S32768x1024x2_d2 _ rfl rfl
      (ix3 b k ⟨0, Nat.one_pos⟩) (fun a ha => ?_) ?_).trans ?_
    · match a with
      | ⟨0, _⟩ => rfl
      | ⟨1, _⟩ => rfl
      | ⟨2, _⟩ => exact absurd rfl ha
    · show 0 + 1 = s.val
      omega
    · rw [val_main_v10_apply, e10, val_main_v8_apply, val_main_v7_apply, val_main_cst_1_apply, ref_d]
      rfl

/-- Level 0: the root is reached with probability one. -/
theorem ref_mu0 (b : Fin 32768) (j : Fin 1) : val_main_v12 (F := Ideal) (ix2 b j) = mu one (dec x0 x1 b) 0 j.val := by
  rw [val_main_v12_apply, val_main_cst_2_apply]
  rfl

/-- Level 1 of the reference: 2 nodes. -/
theorem ref_mu1 (b : Fin 32768) (j : Fin 2) :
    val_main_v18 (F := Ideal) x0 x1 (ix2 b j) = mu one (dec x0 x1 b) 1 j.val :=
  hostLayer_mu (l := 0) (n := 1) (n2 := 2) (W := 1024) rfl rfl (by decide) one (dec x0 x1)
    (val_main_v11 (F := Ideal) x0 x1) (val_main_v12 (F := Ideal)) _ _ _ _ (ref_D x0 x1) (ref_mu0 x0 x1) b j

/-- Level 2 of the reference: 4 nodes. -/
theorem ref_mu2 (b : Fin 32768) (j : Fin 4) :
    val_main_v23 (F := Ideal) x0 x1 (ix2 b j) = mu one (dec x0 x1 b) 2 j.val :=
  hostLayer_mu (l := 1) (n := 2) (n2 := 4) (W := 1024) rfl rfl (by decide) one (dec x0 x1)
    (val_main_v11 (F := Ideal) x0 x1) (val_main_v18 (F := Ideal) x0 x1) _ _ _ _ (ref_D x0 x1) (ref_mu1 x0 x1) b j

/-- Level 3 of the reference: 8 nodes. -/
theorem ref_mu3 (b : Fin 32768) (j : Fin 8) :
    val_main_v28 (F := Ideal) x0 x1 (ix2 b j) = mu one (dec x0 x1 b) 3 j.val :=
  hostLayer_mu (l := 2) (n := 4) (n2 := 8) (W := 1024) rfl rfl (by decide) one (dec x0 x1)
    (val_main_v11 (F := Ideal) x0 x1) (val_main_v23 (F := Ideal) x0 x1) _ _ _ _ (ref_D x0 x1) (ref_mu2 x0 x1) b j

/-- Level 4 of the reference: 16 nodes. -/
theorem ref_mu4 (b : Fin 32768) (j : Fin 16) :
    val_main_v33 (F := Ideal) x0 x1 (ix2 b j) = mu one (dec x0 x1 b) 4 j.val :=
  hostLayer_mu (l := 3) (n := 8) (n2 := 16) (W := 1024) rfl rfl (by decide) one (dec x0 x1)
    (val_main_v11 (F := Ideal) x0 x1) (val_main_v28 (F := Ideal) x0 x1) _ _ _ _ (ref_D x0 x1) (ref_mu3 x0 x1) b j

/-- Level 5 of the reference: 32 nodes. -/
theorem ref_mu5 (b : Fin 32768) (j : Fin 32) :
    val_main_v38 (F := Ideal) x0 x1 (ix2 b j) = mu one (dec x0 x1 b) 5 j.val :=
  hostLayer_mu (l := 4) (n := 16) (n2 := 32) (W := 1024) rfl rfl (by decide) one (dec x0 x1)
    (val_main_v11 (F := Ideal) x0 x1) (val_main_v33 (F := Ideal) x0 x1) _ _ _ _ (ref_D x0 x1) (ref_mu4 x0 x1) b j

/-- Level 6 of the reference: 64 nodes. -/
theorem ref_mu6 (b : Fin 32768) (j : Fin 64) :
    val_main_v43 (F := Ideal) x0 x1 (ix2 b j) = mu one (dec x0 x1 b) 6 j.val :=
  hostLayer_mu (l := 5) (n := 32) (n2 := 64) (W := 1024) rfl rfl (by decide) one (dec x0 x1)
    (val_main_v11 (F := Ideal) x0 x1) (val_main_v38 (F := Ideal) x0 x1) _ _ _ _ (ref_D x0 x1) (ref_mu5 x0 x1) b j

/-- Level 7 of the reference: 128 nodes. -/
theorem ref_mu7 (b : Fin 32768) (j : Fin 128) :
    val_main_v48 (F := Ideal) x0 x1 (ix2 b j) = mu one (dec x0 x1 b) 7 j.val :=
  hostLayer_mu (l := 6) (n := 64) (n2 := 128) (W := 1024) rfl rfl (by decide) one (dec x0 x1)
    (val_main_v11 (F := Ideal) x0 x1) (val_main_v43 (F := Ideal) x0 x1) _ _ _ _ (ref_D x0 x1) (ref_mu6 x0 x1) b j

/-- Level 8 of the reference: 256 nodes. -/
theorem ref_mu8 (b : Fin 32768) (j : Fin 256) :
    val_main_v53 (F := Ideal) x0 x1 (ix2 b j) = mu one (dec x0 x1 b) 8 j.val :=
  hostLayer_mu (l := 7) (n := 128) (n2 := 256) (W := 1024) rfl rfl (by decide) one (dec x0 x1)
    (val_main_v11 (F := Ideal) x0 x1) (val_main_v48 (F := Ideal) x0 x1) _ _ _ _ (ref_D x0 x1) (ref_mu7 x0 x1) b j

/-- Level 9 of the reference: 512 nodes. -/
theorem ref_mu9 (b : Fin 32768) (j : Fin 512) :
    val_main_v58 (F := Ideal) x0 x1 (ix2 b j) = mu one (dec x0 x1 b) 9 j.val :=
  hostLayer_mu (l := 8) (n := 256) (n2 := 512) (W := 1024) rfl rfl (by decide) one (dec x0 x1)
    (val_main_v11 (F := Ideal) x0 x1) (val_main_v53 (F := Ideal) x0 x1) _ _ _ _ (ref_D x0 x1) (ref_mu8 x0 x1) b j

/-- Level 10 of the reference: 1024 nodes. -/
theorem ref_mu10 (b : Fin 32768) (j : Fin 1024) :
    val_main_v63 (F := Ideal) x0 x1 (ix2 b j) = mu one (dec x0 x1 b) 10 j.val :=
  hostLayer_mu (l := 9) (n := 512) (n2 := 1024) (W := 1024) rfl rfl (by decide) one (dec x0 x1)
    (val_main_v11 (F := Ideal) x0 x1) (val_main_v58 (F := Ideal) x0 x1) _ _ _ _ (ref_D x0 x1) (ref_mu9 x0 x1) b j

/-- The leading pair of ones. -/
theorem ref_p0 (b : Fin 32768) (j : Fin 2) : val_main_v13 (F := Ideal) (ix2 b j) = one := by
  rw [val_main_v13_apply, val_main_cst_3_apply]
  rfl

/-- The reference's result at entry (b, c). -/
theorem ref_out (b : Fin 32768) (c : Fin 2048) : val_main_v64 (F := Ideal) x0 x1 (ix2 b c) = leaf one (dec x0 x1 b) c.val :=
  rowConcat_apply one (dec x0 x1) (val_main_v13 (F := Ideal)) (val_main_v18 (F := Ideal) x0 x1) (val_main_v23 (F := Ideal) x0 x1)
    (val_main_v28 (F := Ideal) x0 x1) (val_main_v33 (F := Ideal) x0 x1) (val_main_v38 (F := Ideal) x0 x1)
    (val_main_v43 (F := Ideal) x0 x1) (val_main_v48 (F := Ideal) x0 x1) (val_main_v53 (F := Ideal) x0 x1)
    (val_main_v58 (F := Ideal) x0 x1) (val_main_v63 (F := Ideal) x0 x1) _
    ref_p0 (ref_mu1 x0 x1) (ref_mu2 x0 x1) (ref_mu3 x0 x1) (ref_mu4 x0 x1) (ref_mu5 x0 x1) (ref_mu6 x0 x1)
    (ref_mu7 x0 x1) (ref_mu8 x0 x1) (ref_mu9 x0 x1) (ref_mu10 x0 x1) b c

/-- THE REFERENCE IS G. -/
theorem ref_eq_G : val_main_v64 (F := Ideal) x0 x1 = G x0 x1 := by
  funext i
  obtain ⟨b, c, rfl⟩ : ∃ (b : Fin 32768) (c : Fin 2048), i = ix2 b c := ⟨i 0, i 1, eq_ix2 i⟩
  rw [ref_out, G_apply]

end Cert.Tree.Ref

end
-- ==== Proof.lean ====
/-
  A soft decision tree of depth 10 over 32768 rows of 1024 features: the kernel against its reference.

  Both programs compute, for every row, the sigmoid decisions d = sigmoid (x · fm) of the tree's inner nodes
  and from them the probabilities of reaching every node, level by level: a node is reached with its parent's
  probability times d at the parent for a left child, times 1 - d for a right child.  The output row is a
  pair of ones followed by the levels 1 … 10 (Spec: G; LibTreeLayers: mu, leaf).

  The kernel does this on 64 blocks of 512 rows, with the product on the matrix unit from bf16 operands
  (a change of format is the identity over the extended reals) and the sigmoid as one operation
  (KernelPay, KernelValue); the reference on the whole arrays, with the sigmoid spelt 1 / (1 + exp (-f)) and
  the pair (d, 1 - d) stacked once (RefValue).  Over the extended reals both result arrays are G of the two
  arguments, entry by entry, with the same products in the same order: no law of arithmetic beyond the
  sigmoid's two spellings is used, and no input needs to be finite.  The three frames are the generated ones
  (the reference's from its generated run); the idealization rewrote nothing.
-/
import proofs.«161598_j53824530153725_1_alg».proof.Defs
import proofs.«161598_j53824530153725_1_alg».proof.Proof.Gen.Kernel
import proofs.«161598_j53824530153725_1_alg».proof.Proof.Gen.Kernel.Skeleton
import proofs.«161598_j53824530153725_1_alg».proof.Proof.Gen.Kernel.Launch
import proofs.«161598_j53824530153725_1_alg».proof.Proof.Gen.Kernel.Points
import proofs.«161598_j53824530153725_1_alg».proof.Proof.Gen.Kernel.Frame
import proofs.«161598_j53824530153725_1_alg».proof.Proof.Gen.KernelIdeal
import proofs.«161598_j53824530153725_1_alg».proof.Proof.Gen.KernelIdeal.Skeleton
import proofs.«161598_j53824530153725_1_alg».proof.Proof.Gen.KernelIdeal.Launch
import proofs.«161598_j53824530153725_1_alg».proof.Proof.Gen.KernelIdeal.Points
import proofs.«161598_j53824530153725_1_alg».proof.Proof.Gen.KernelIdeal.Frame
import proofs.«161598_j53824530153725_1_alg».proof.Proof.Gen.ReferenceIdeal
import proofs.«161598_j53824530153725_1_alg».proof.Proof.Gen.Pre_finite_inputs
import proofs.«161598_j53824530153725_1_alg».proof.Proof.Gen.KernelIdeal.Value
import proofs.«161598_j53824530153725_1_alg».proof.Proof.Gen.ReferenceIdeal.Run
import proofs.«161598_j53824530153725_1_alg».proof.Proof.Gen.ReferenceIdeal.Read
import proofs.«161598_j53824530153725_1_alg».proof.Proof.KernelValue
import proofs.«161598_j53824530153725_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at G of the arguments, which agree. -/
theorem algebraic : Cert.algebraic_KernelIdeal_ReferenceIdeal := by
  intro m ρ m' ρ' _ hagree
  refine ⟨fun c => Cert.Tree.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.Tree.KerValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v64_eq, Cert.Tree.Ref.ref_eq_G, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
